-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S128 .f32) (main_arg7 : FVec F S128x32 .f32) (main_arg8 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩

abbrev nBuf : Space → Nat
  | .hbm => 115
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S512x128, .f32⟩
  | .hbm, ⟨94, _⟩ => ⟨S100000x1, .i32⟩
  | .hbm, ⟨95, _⟩ => ⟨S512x128, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S512, .f32⟩
  | .hbm, ⟨100, _⟩ => ⟨S100000x1, .i32⟩
  | .hbm, ⟨101, _⟩ => ⟨S512, .f32⟩
  | .hbm, ⟨102, _⟩ => ⟨S_, .f32⟩
  | .hbm, ⟨103, _⟩ => ⟨S512, .f32⟩
  | .hbm, ⟨104, _⟩ => ⟨S512, .f32⟩
  | .hbm, ⟨105, _⟩ => ⟨S512x1, .f32⟩
  | .hbm, ⟨106, _⟩ => ⟨S512x128, .f32⟩
  | .hbm, ⟨107, _⟩ => ⟨S512x128, .f32⟩
  | .hbm, ⟨108, _⟩ => ⟨S_, .f32⟩
  | .hbm, ⟨109, _⟩ => ⟨S512x128, .f32⟩
  | .hbm, ⟨110, _⟩ => ⟨S512x128, .f32⟩
  | .hbm, ⟨111, _⟩ => ⟨S512x32, .f32⟩
  | .hbm, ⟨112, _⟩ => ⟨S1x32, .f32⟩
  | .hbm, ⟨113, _⟩ => ⟨S512x32, .f32⟩
  | .hbm, ⟨114, _⟩ => ⟨S512x32, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S512x128, .f32⟩
  | .local _ .vmem, ⟨11, _⟩ => ⟨S128x32, .f32⟩
  | .local _ .vmem, ⟨12, _⟩ => ⟨S512x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_15 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x32_S128x32_0_0 : ∀ a, (![0, 0] : Fin 2 → Nat) a + S128x32.size a ≤ S128x32.size a
  h_S128x32 : 0 < S128x32.numel
  inb_S512x32_S512x32_0_0 : ∀ a, (![0, 0] : Fin 2 → Nat) a + S512x32.size a ≤ S512x32.size a
  h_S512x32 : 0 < S512x32.numel
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x32_S512x32_1_0_0_1_n_n_wf : DotDims.WF S512x128 S128x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S512x32.size a ≤ S512x32.size a
  hwx2_2 : ∀ i : grid2.Coords, EltTy.bits .f32 = 32 ∨ (Rect.block (s := S512x32) S512x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S512x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S512x32.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x32 : Shape := ⟨2, ![512, 32]⟩
abbrev S1x32 : Shape := ⟨2, ![1, 32]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S512x128, .f32⟩
  | 2 => ⟨S100000x1, .i32⟩
  | 3 => ⟨S512x128, .f32⟩
  | 4 => ⟨S_, .f32⟩
  | 5 => ⟨S100000, .f32⟩
  | 6 => ⟨S_, .f32⟩
  | 7 => ⟨S512, .f32⟩
  | 8 => ⟨S100000x1, .i32⟩
  | 9 => ⟨S512, .f32⟩
  | 10 => ⟨S_, .f32⟩
  | 11 => ⟨S512, .f32⟩
  | 12 => ⟨S512, .f32⟩
  | 13 => ⟨S512x1, .f32⟩
  | 14 => ⟨S512x128, .f32⟩
  | 15 => ⟨S512x128, .f32⟩
  | 16 => ⟨S_, .f32⟩
  | 17 => ⟨S512x128, .f32⟩
  | 18 => ⟨S512x128, .f32⟩
  | 19 => ⟨S512x32, .f32⟩
  | 20 => ⟨S1x32, .f32⟩
  | 21 => ⟨S512x32, .f32⟩
  | 22 => ⟨S512x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_23 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call3_cst : Ref sig .tc := ⟨.hbm, 144, rfl⟩
abbrev main_call3_v0 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x32_S512x32_1_0_0_1_n_n_wf : DotDims.WF S512x128 S128x32 S512x32 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x32_S512x32_1_0_0_1_n_n : DotDims S512x128 S128x32 S512x32 where
  lhsContracting := [1]
  rhsContracting := [0]
  lhsNonContracting := [0]
  rhsNonContracting := [1]
  lhsBatch := []
  rhsBatch := []
  wf := dot_S512x128_S128x32_S512x32_1_0_0_1_n_n_wf

class Facts : Prop extends Facts₀ where

variable [Facts]
-- ==== Proof.KernelRun.lean ====
/-
  The idealized kernel's run with its RESULT named.

  @main is eleven segments: host stretches and three matmul regions. At every segment boundary the contents of the
  TensorCore's buffers are a fold from the launch memory: a stretch applies its operations, a region replaces its
  arrays by what its write-backs leave. The run below says that every weakly fair execution terminates, that the
  result buffer (the last addition, pooled features times the head's weights plus its bias) ends at the last fold
  read at that buffer, and that the nine argument arrays end as launched. What that fold IS, as a function of the
  arguments, is the business of the modules that read it stretch by stretch.
-/
import proofs.«106304_j77876347011160_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents read there, and each argument array ends as launched. -/
theorem run_result : θ_run defs (onTc (τ := τ) (main (F := F))) ⟨m, fun _ => 0, ρ⟩ (fun r => ∀ c : Dev nD,
      r.2.mem ((c.tc : Thread nD τ).loc main_v81) = W11 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v81 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.RunValue

end
-- ==== Proof.CallCasts.lean ====
/-
  A called function's values are the caller's buffers.

  The three small functions the program calls (the selection that zeroes the inverse root of a non-positive degree, and
  the two clampings at zero) are stated over values that carry their tensor type; at a call each such value is a buffer
  of @main, whose type is looked up in the program's table of buffers. Moving contents between the two spellings of the
  type is the identity, buffer by buffer: the table's entry is the value's type.
-/
import proofs.«106304_j77876347011160_1_alg».proof.KernelIdeal
import Idealize.ShloMosaic.Lib.StableHlo
import Idealize.ShloMosaic.PureOps.Ideal

noncomputable section

namespace Cert.KernelIdeal.Stages

open Cert.KernelIdeal Idealize.ShloMosaic Idealize.ShloMosaic.StableHlo

theorem to_cst_2 (p1 p2 p3) (v : (⟨S_, .f32⟩ : BufTy).Contents (Elt Ideal)) :
    (TRef.of (sig := sig) (T := ⟨S_, .f32⟩) main_cst_2 p1 p2 p3).toBuf v = v := rfl
theorem of_cst_2 (p1 p2 p3) (v : (⟨S_, .f32⟩ : BufTy).Contents (Elt Ideal)) :
    (TRef.of (sig := sig) (T := ⟨S_, .f32⟩) main_cst_2 p1 p2 p3).ofBuf v = v := rfl
theorem to_call0_v0 (p1 p2 p3) (v : (⟨S_, .f32⟩ : BufTy).Contents (Elt Ideal)) :
    (TRef.of (sig := sig) (T := ⟨S_, .f32⟩) main_call0_v0 p1 p2 p3).toBuf v = v := rfl
theorem of_call0_v0 (p1 p2 p3) (v : (⟨S_, .f32⟩ : BufTy).Contents (Elt Ideal)) :
    (TRef.of (sig := sig) (T := ⟨S_, .f32⟩) main_call0_v0 p1 p2 p3).ofBuf v = v := rfl
theorem to_call0_v1 (p1 p2 p3) (v : (⟨S100000, .f32⟩ : BufTy).Contents (Elt Ideal)) :
    (TRef.of (sig := sig) (T := ⟨S100000, .f32⟩) main_call0_v1 p1 p2 p3).toBuf v = v := rfl
theorem of_call0_v1 (p1 p2 p3) (v : (⟨S100000, .f32⟩ : BufTy).Contents (Elt Ideal)) :
    (TRef.of (sig := sig) (T := ⟨S100000, .f32⟩) main_call0_v1 p1 p2 p3).ofBuf v = v := rfl
theorem to_v12 (p1 p2 p3) (v : (⟨S100000, .i1⟩ : BufTy).Contents (Elt Ideal)) :
    (TRef.of (sig := sig) (T := ⟨S100000, .i1⟩) main_v12 p1 p2 p3).toBuf v = v := rfl
theorem of_v12 (p1 p2 p3) (v : (⟨S100000, .i1⟩ : BufTy).Contents (Elt Ideal)) :
    (TRef.of (sig := sig) (T := ⟨S100000, .i1⟩) main_v12 p1 p2 p3).ofBuf v = v := rfl
theorem to_v13 (p1 p2 p3) (v : (⟨S100000, .f32⟩ : BufTy).Contents (Elt Ideal)) :
    (TRef.of (sig := sig) (T := ⟨S100000, .f32⟩) main_v13 p1 p2 p3).toBuf v = v := rfl
theorem of_v13 (p1 p2 p3) (v : (⟨S100000, .f32⟩ : BufTy).Contents (Elt Ideal)) :
    (TRef.of (sig := sig) (T := ⟨S100000, .f32⟩) main_v13 p1 p2 p3).ofBuf v = v := rfl
theorem to_v14 (p1 p2 p3) (v : (⟨S100000, .f32⟩ : BufTy).Contents (Elt Ideal)) :
    (TRef.of (sig := sig) (T := ⟨S100000, .f32⟩) main_v14 p1 p2 p3).toBuf v = v := rfl
theorem of_v14 (p1 p2 p3) (v : (⟨S100000, .f32⟩ : BufTy).Contents (Elt Ideal)) :
    (TRef.of (sig := sig) (T := ⟨S100000, .f32⟩) main_v14 p1 p2 p3).ofBuf v = v := rfl
theorem to_call1_cst (p1 p2 p3) (v : (⟨S_, .f32⟩ : BufTy).Contents (Elt Ideal)) :
    (TRef.of (sig := sig) (T := ⟨S_, .f32⟩) main_call1_cst p1 p2 p3).toBuf v = v := rfl
theorem of_call1_cst (p1 p2 p3) (v : (⟨S_, .f32⟩ : BufTy).Contents (Elt Ideal)) :
    (TRef.of (sig := sig) (T := ⟨S_, .f32⟩) main_call1_cst p1 p2 p3).ofBuf v = v := rfl
theorem to_call1_v0 (p1 p2 p3) (v : (⟨S100000x128, .f32⟩ : BufTy).Contents (Elt Ideal)) :
    (TRef.of (sig := sig) (T := ⟨S100000x128, .f32⟩) main_call1_v0 p1 p2 p3).toBuf v = v := rfl
theorem of_call1_v0 (p1 p2 p3) (v : (⟨S100000x128, .f32⟩ : BufTy).Contents (Elt Ideal)) :
    (TRef.of (sig := sig) (T := ⟨S100000x128, .f32⟩) main_call1_v0 p1 p2 p3).ofBuf v = v := rfl
theorem to_v46 (p1 p2 p3) (v : (⟨S100000x128, .f32⟩ : BufTy).Contents (Elt Ideal)) :
    (TRef.of (sig := sig) (T := ⟨S100000x128, .f32⟩) main_v46 p1 p2 p3).toBuf v = v := rfl
theorem of_v46 (p1 p2 p3) (v : (⟨S100000x128, .f32⟩ : BufTy).Contents (Elt Ideal)) :
    (TRef.of (sig := sig) (T := ⟨S100000x128, .f32⟩) main_v46 p1 p2 p3).ofBuf v = v := rfl
theorem to_v47 (p1 p2 p3) (v : (⟨S100000x128, .f32⟩ : BufTy).Contents (Elt Ideal)) :
    (TRef.of (sig := sig) (T := ⟨S100000x128, .f32⟩) main_v47 p1 p2 p3).toBuf v = v := rfl
theorem of_v47 (p1 p2 p3) (v : (⟨S100000x128, .f32⟩ : BufTy).Contents (Elt Ideal)) :
    (TRef.of (sig := sig) (T := ⟨S100000x128, .f32⟩) main_v47 p1 p2 p3).ofBuf v = v := rfl
theorem to_call2_cst (p1 p2 p3) (v : (⟨S_, .f32⟩ : BufTy).Contents (Elt Ideal)) :
    (TRef.of (sig := sig) (T := ⟨S_, .f32⟩) main_call2_cst p1 p2 p3).toBuf v = v := rfl
theorem of_call2_cst (p1 p2 p3) (v : (⟨S_, .f32⟩ : BufTy).Contents (Elt Ideal)) :
    (TRef.of (sig := sig) (T := ⟨S_, .f32⟩) main_call2_cst p1 p2 p3).ofBuf v = v := rfl
theorem to_call2_v0 (p1 p2 p3) (v : (⟨S512x128, .f32⟩ : BufTy).Contents (Elt Ideal)) :
    (TRef.of (sig := sig) (T := ⟨S512x128, .f32⟩) main_call2_v0 p1 p2 p3).toBuf v = v := rfl
theorem of_call2_v0 (p1 p2 p3) (v : (⟨S512x128, .f32⟩ : BufTy).Contents (Elt Ideal)) :
    (TRef.of (sig := sig) (T := ⟨S512x128, .f32⟩) main_call2_v0 p1 p2 p3).ofBuf v = v := rfl
theorem to_v76 (p1 p2 p3) (v : (⟨S512x128, .f32⟩ : BufTy).Contents (Elt Ideal)) :
    (TRef.of (sig := sig) (T := ⟨S512x128, .f32⟩) main_v76 p1 p2 p3).toBuf v = v := rfl
theorem of_v76 (p1 p2 p3) (v : (⟨S512x128, .f32⟩ : BufTy).Contents (Elt Ideal)) :
    (TRef.of (sig := sig) (T := ⟨S512x128, .f32⟩) main_v76 p1 p2 p3).ofBuf v = v := rfl
theorem to_v77 (p1 p2 p3) (v : (⟨S512x128, .f32⟩ : BufTy).Contents (Elt Ideal)) :
    (TRef.of (sig := sig) (T := ⟨S512x128, .f32⟩) main_v77 p1 p2 p3).toBuf v = v := rfl
theorem of_v77 (p1 p2 p3) (v : (⟨S512x128, .f32⟩ : BufTy).Contents (Elt Ideal)) :
    (TRef.of (sig := sig) (T := ⟨S512x128, .f32⟩) main_v77 p1 p2 p3).ofBuf v = v := rfl

end Cert.KernelIdeal.Stages

end
-- ==== Proof.Stage3.lean ====
/-
  The buffers at the first matmul's entry, as functions of the arguments.

  Before the first matmul region the host computes, from the edge list alone: the source and destination lists with
  the self loops appended (the edge rows joined with 0 … N-1), the in-degree of every node as a scatter-add of ones,
  its inverse square root where the degree is positive and zero elsewhere, and the edge weight as the product of
  that quantity gathered at the source and at the destination. These are the reference's own first operations, so
  each buffer holds the reference's stage of the same name; no float argument has been written.
-/
import proofs.«106304_j77876347011160_1_alg».proof.Proof.Gen.KernelIdeal.Frame
import proofs.«106304_j77876347011160_1_alg».proof.Proof.RefRead
import proofs.«106304_j77876347011160_1_alg».proof.Proof.CallCasts

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch contents of an argument buffer are the memory's. -/
theorem at0 (b : Ref sig .tc) : W0 m ρ c (Proc.devRef .tc b) = m ((c : Thread nD τ).loc b) := rfl

/-- The source list with the self loops appended. -/
theorem at3_src : W3 m ρ c (Proc.devRef .tc main_v5) = val_main_v6 (F := Ideal) (m ((c : Thread nD τ).loc main_arg1)) := by
  show StableHlo.after hostOps0_2 (StableHlo.after hostOps0_1 (StableHlo.after hostOps0 (W0 m ρ c))) (Proc.devRef .tc main_v5) = _
  dsimp only [hostOps0_2, hostOps0_1, hostOps0]
  after_results
  rw [at0]
  rfl

/-- The destination list with the self loops appended. -/
theorem at3_dst : W3 m ρ c (Proc.devRef .tc main_v6) = val_main_v7 (F := Ideal) (m ((c : Thread nD τ).loc main_arg1)) := by
  show StableHlo.after hostOps0_2 (StableHlo.after hostOps0_1 (StableHlo.after hostOps0 (W0 m ρ c))) (Proc.devRef .tc main_v6) = _
  dsimp only [hostOps0_2, hostOps0_1, hostOps0]
  after_results
  rw [at0]
  rfl

/-- After the first stretch: is the in-degree positive, node by node. -/
theorem at1_pos : W1 m ρ c (Proc.devRef .tc main_v12) = val_main_v13 (F := Ideal) (m ((c : Thread nD τ).loc main_arg1)) := by
  show StableHlo.after hostOps0 (W0 m ρ c) (Proc.devRef .tc main_v12) = _
  dsimp only [hostOps0]
  after_results_simp
  rfl
/-- After the first stretch: the inverse square root of the in-degree. -/
theorem at1_rsqrt : W1 m ρ c (Proc.devRef .tc main_v13) = val_main_v14 (F := Ideal) (m ((c : Thread nD τ).loc main_arg1)) := by
  show StableHlo.after hostOps0 (W0 m ρ c) (Proc.devRef .tc main_v13) = _
  dsimp only [hostOps0]
  after_results_simp
  rfl
/-- After the first stretch: the zero that replaces the inverse root where the degree is not positive. -/
theorem at1_zero : W1 m ρ c (Proc.devRef .tc main_cst_2) = val_main_cst_2 (F := Ideal) := by
  show StableHlo.after hostOps0 (W0 m ρ c) (Proc.devRef .tc main_cst_2) = _
  dsimp only [hostOps0]
  after_results
  rfl
/-- After the first stretch: the source list with the self loops appended. -/
theorem at1_src : W1 m ρ c (Proc.devRef .tc main_v5) = val_main_v6 (F := Ideal) (m ((c : Thread nD τ).loc main_arg1)) := by
  show StableHlo.after hostOps0 (W0 m ρ c) (Proc.devRef .tc main_v5) = _
  dsimp only [hostOps0]
  after_results
  rfl
/-- After the first stretch: the destination list with the self loops appended. -/
theorem at1_dst : W1 m ρ c (Proc.devRef .tc main_v6) = val_main_v7 (F := Ideal) (m ((c : Thread nD τ).loc main_arg1)) := by
  show StableHlo.after hostOps0 (W0 m ρ c) (Proc.devRef .tc main_v6) = _
  dsimp only [hostOps0]
  after_results
  rfl

/-- The selection, from any contents: the inverse root where the degree is positive, zero elsewhere. -/
theorem select_step (B : Valuation τ sig (Elt Ideal)) (x1 : (⟨Cert.ReferenceIdeal.S2x1600000, .i32⟩ : BufTy).Contents (Elt Ideal))
    (hpos : B (Proc.devRef .tc main_v12) = val_main_v13 (F := Ideal) x1)
    (hr : B (Proc.devRef .tc main_v13) = val_main_v14 (F := Ideal) x1)
    (hz : B (Proc.devRef .tc main_cst_2) = val_main_cst_2 (F := Ideal)) :
    StableHlo.after hostOps0_1 B (Proc.devRef .tc main_v14) = val_main_v15 (F := Ideal) x1 := by
  dsimp only [hostOps0_1]
  after_results_simp
  simp only [of_v12, of_v13, of_cst_2, to_call0_v0, of_call0_v0, to_call0_v1, of_call0_v1, to_v14, hpos, hr, hz]
  rfl
/-- After the selection: the inverse root of the in-degree where it is positive, zero elsewhere. -/
theorem at2_dinv : W2 m ρ c (Proc.devRef .tc main_v14) = val_main_v15 (F := Ideal) (m ((c : Thread nD τ).loc main_arg1)) :=
  select_step (W1 m ρ c) _ (at1_pos m ρ c) (at1_rsqrt m ρ c) (at1_zero m ρ c)
theorem at2_src : W2 m ρ c (Proc.devRef .tc main_v5) = val_main_v6 (F := Ideal) (m ((c : Thread nD τ).loc main_arg1)) := by
  show StableHlo.after hostOps0_1 (W1 m ρ c) (Proc.devRef .tc main_v5) = _
  dsimp only [hostOps0_1]
  after_results_simp
  exact at1_src m ρ c
theorem at2_dst : W2 m ρ c (Proc.devRef .tc main_v6) = val_main_v7 (F := Ideal) (m ((c : Thread nD τ).loc main_arg1)) := by
  show StableHlo.after hostOps0_1 (W1 m ρ c) (Proc.devRef .tc main_v6) = _
  dsimp only [hostOps0_1]
  after_results_simp
  exact at1_dst m ρ c

set_option maxHeartbeats 4000000 in
/-- The edge weights, from any contents holding the clamped inverse roots and the two index lists: the inverse root
    gathered at the source times the inverse root gathered at the destination (a negative index wrapped by N first). -/
theorem weight_step (B : Valuation τ sig (Elt Ideal)) (x1 : (⟨Cert.ReferenceIdeal.S2x1600000, .i32⟩ : BufTy).Contents (Elt Ideal))
    (hdinv : B (Proc.devRef .tc main_v14) = val_main_v15 (F := Ideal) x1)
    (hsrc : B (Proc.devRef .tc main_v5) = val_main_v6 (F := Ideal) x1)
    (hdst : B (Proc.devRef .tc main_v6) = val_main_v7 (F := Ideal) x1) :
    StableHlo.after hostOps0_2 B (Proc.devRef .tc main_v29) = val_main_v30 (F := Ideal) x1 := by
  dsimp only [hostOps0_2]
  after_results_simp
  simp only [hdinv, hsrc, hdst]
  rfl
/-- The edge weights: inverse square root of the in-degree at the source times the same at the destination. -/
theorem at3_norm : W3 m ρ c (Proc.devRef .tc main_v29) = val_main_v30 (F := Ideal) (m ((c : Thread nD τ).loc main_arg1)) :=
  weight_step (W2 m ρ c) _ (at2_dinv m ρ c) (at2_src m ρ c) (at2_dst m ρ c)

theorem at3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results
theorem at3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results
theorem at3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results
theorem at3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results
theorem at3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results
theorem at3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results
theorem at3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  dsimp only [hostOps0_2, hostOps0_1, hostOps0]
  after_results
theorem at3_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  dsimp only [hostOps0_2, hostOps0_1, hostOps0]
  after_results

end Cert.KernelIdeal.Stages

end
-- ==== Proof.Stage6.lean ====
/-
  From the first matmul's exit to the second matmul's entry: one graph convolution's message passing.

  The host gathers the rows of the first product at the edge sources, scales each gathered row by its edge weight,
  scatter-adds the scaled rows into the destination nodes, adds the first bias and clamps at zero. Given that the
  buffers this stretch reads hold the reference's stages (the product, the two index lists, the edge weights, the
  bias), the hidden features it leaves are the reference's stage of the first layer's output. The buffers that later
  stretches still need are not written here.
-/
import proofs.«106304_j77876347011160_1_alg».proof.Proof.Gen.KernelIdeal.Frame
import proofs.«106304_j77876347011160_1_alg».proof.Proof.RefRead
import proofs.«106304_j77876347011160_1_alg».proof.Proof.CallCasts

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S128x32, .f32⟩ : BufTy).Contents (Elt Ideal)) (x8 : (⟨Cert.ReferenceIdeal.S32, .f32⟩ : BufTy).Contents (Elt Ideal))

set_option maxHeartbeats 4000000 in
/-- The hidden features after the first layer. -/
theorem at6_hidden
    (hxw : W4 m ρ c (Proc.devRef .tc main_v30) = val_main_v4 (F := Ideal) x0 x3)
    (hsrc : W4 m ρ c (Proc.devRef .tc main_v5) = val_main_v6 (F := Ideal) x1)
    (hdst : W4 m ρ c (Proc.devRef .tc main_v6) = val_main_v7 (F := Ideal) x1)
    (hnorm : W4 m ρ c (Proc.devRef .tc main_v29) = val_main_v30 (F := Ideal) x1)
    (hb : W4 m ρ c (Proc.devRef .tc main_arg4) = x4) :
    W6 m ρ c (Proc.devRef .tc main_v47) = val_main_v47 (F := Ideal) x0 x1 x3 x4 := by
  show StableHlo.after hostOps1_1 (StableHlo.after hostOps1 (W4 m ρ c)) (Proc.devRef .tc main_v47) = _
  dsimp only [hostOps1_1, hostOps1]
  after_results_simp
  simp only [to_call1_cst, of_call1_cst, to_call1_v0, of_call1_v0, of_v46, to_v47, hxw, hsrc, hdst, hnorm, hb]
  rfl

end Cert.KernelIdeal.Stages

end
-- ==== Proof.Carry6.lean ====
/-
  The buffers that the first message-passing stretch does not write.

  Between the first matmul's exit and the second matmul's entry the host writes only fresh buffers. The two index lists,
  the edge weights and the arguments read later are among its inputs or untouched, so each holds at the second matmul's
  entry what it held at the first matmul's exit.
-/
import proofs.«106304_j77876347011160_1_alg».proof.Proof.Gen.KernelIdeal.Frame
import proofs.«106304_j77876347011160_1_alg».proof.Proof.RefRead

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem carry4_6_v5 : W6 m ρ c (Proc.devRef .tc main_v5) = W4 m ρ c (Proc.devRef .tc main_v5) := by
  show StableHlo.after hostOps1_1 (StableHlo.after hostOps1 (W4 m ρ c)) (Proc.devRef .tc main_v5) = _
  dsimp only [hostOps1_1, hostOps1]
  after_results_simp
theorem carry4_6_v6 : W6 m ρ c (Proc.devRef .tc main_v6) = W4 m ρ c (Proc.devRef .tc main_v6) := by
  show StableHlo.after hostOps1_1 (StableHlo.after hostOps1 (W4 m ρ c)) (Proc.devRef .tc main_v6) = _
  dsimp only [hostOps1_1, hostOps1]
  after_results_simp
theorem carry4_6_v29 : W6 m ρ c (Proc.devRef .tc main_v29) = W4 m ρ c (Proc.devRef .tc main_v29) := by
  show StableHlo.after hostOps1_1 (StableHlo.after hostOps1 (W4 m ρ c)) (Proc.devRef .tc main_v29) = _
  dsimp only [hostOps1_1, hostOps1]
  after_results_simp
theorem carry4_6_arg2 : W6 m ρ c (Proc.devRef .tc main_arg2) = W4 m ρ c (Proc.devRef .tc main_arg2) := by
  show StableHlo.after hostOps1_1 (StableHlo.after hostOps1 (W4 m ρ c)) (Proc.devRef .tc main_arg2) = _
  dsimp only [hostOps1_1, hostOps1]
  after_results_simp
theorem carry4_6_arg5 : W6 m ρ c (Proc.devRef .tc main_arg5) = W4 m ρ c (Proc.devRef .tc main_arg5) := by
  show StableHlo.after hostOps1_1 (StableHlo.after hostOps1 (W4 m ρ c)) (Proc.devRef .tc main_arg5) = _
  dsimp only [hostOps1_1, hostOps1]
  after_results_simp
theorem carry4_6_arg6 : W6 m ρ c (Proc.devRef .tc main_arg6) = W4 m ρ c (Proc.devRef .tc main_arg6) := by
  show StableHlo.after hostOps1_1 (StableHlo.after hostOps1 (W4 m ρ c)) (Proc.devRef .tc main_arg6) = _
  dsimp only [hostOps1_1, hostOps1]
  after_results_simp
theorem carry4_6_arg7 : W6 m ρ c (Proc.devRef .tc main_arg7) = W4 m ρ c (Proc.devRef .tc main_arg7) := by
  show StableHlo.after hostOps1_1 (StableHlo.after hostOps1 (W4 m ρ c)) (Proc.devRef .tc main_arg7) = _
  dsimp only [hostOps1_1, hostOps1]
  after_results_simp
theorem carry4_6_arg8 : W6 m ρ c (Proc.devRef .tc main_arg8) = W4 m ρ c (Proc.devRef .tc main_arg8) := by
  show StableHlo.after hostOps1_1 (StableHlo.after hostOps1 (W4 m ρ c)) (Proc.devRef .tc main_arg8) = _
  dsimp only [hostOps1_1, hostOps1]
  after_results_simp

end Cert.KernelIdeal.Stages

end
-- ==== Proof.Stage9.lean ====
/-
  From the second matmul's exit to the third matmul's entry: the second message passing and the mean pool.

  The host gathers the rows of the second product at the edge sources, scales them by the SAME edge weights the first
  layer used, scatter-adds them into the destinations and adds the second bias; then it sums the node features of each
  graph (a scatter-add by the graph index), counts each graph's nodes the same way, divides the sums by the counts
  clamped below at one, and clamps the quotient at zero. The reference computes its second layer's index lists, degree
  and edge weights afresh, from the same edge list by the same operations: those stages are the first layer's, term
  for term, which is what lets this stretch, fed the shared weights, leave the reference's pooled features.
-/
import proofs.«106304_j77876347011160_1_alg».proof.Proof.Gen.KernelIdeal.Frame
import proofs.«106304_j77876347011160_1_alg».proof.Proof.RefRead
import proofs.«106304_j77876347011160_1_alg».proof.Proof.CallCasts

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S128x32, .f32⟩ : BufTy).Contents (Elt Ideal)) (x8 : (⟨Cert.ReferenceIdeal.S32, .f32⟩ : BufTy).Contents (Elt Ideal))

/-- The reference's second copy of the source list is its first. -/
theorem src_again : val_main_v50 (F := Ideal) x1 = val_main_v6 (F := Ideal) x1 := rfl
/-- The reference's second copy of the destination list is its first. -/
theorem dst_again : val_main_v51 (F := Ideal) x1 = val_main_v7 (F := Ideal) x1 := rfl
/-- The reference's second computation of the edge weights gives the first's. -/
theorem norm_again : val_main_v74 (F := Ideal) x1 = val_main_v30 (F := Ideal) x1 := rfl

set_option maxHeartbeats 8000000 in
/-- The pooled, clamped graph features. -/
theorem at9_pooled
    (hxw : W7 m ρ c (Proc.devRef .tc main_v48) = val_main_v48 (F := Ideal) x0 x1 x3 x4 x5)
    (hsrc : W7 m ρ c (Proc.devRef .tc main_v5) = val_main_v6 (F := Ideal) x1)
    (hdst : W7 m ρ c (Proc.devRef .tc main_v6) = val_main_v7 (F := Ideal) x1)
    (hnorm : W7 m ρ c (Proc.devRef .tc main_v29) = val_main_v30 (F := Ideal) x1)
    (hb : W7 m ρ c (Proc.devRef .tc main_arg6) = x6)
    (hbatch : W7 m ρ c (Proc.devRef .tc main_arg2) = x2) :
    W9 m ρ c (Proc.devRef .tc main_v77) = val_main_v103 (F := Ideal) x0 x1 x2 x3 x4 x5 x6 := by
  show StableHlo.after hostOps2_1 (StableHlo.after hostOps2 (W7 m ρ c)) (Proc.devRef .tc main_v77) = _
  dsimp only [hostOps2_1, hostOps2]
  after_results_simp
  simp only [to_call2_cst, of_call2_cst, to_call2_v0, of_call2_v0, of_v76, to_v77, hxw, hsrc, hdst, hnorm, hb, hbatch, ← src_again x1, ← dst_again x1, ← norm_again x1]
  rfl

theorem carry7_9_arg7 : W9 m ρ c (Proc.devRef .tc main_arg7) = W7 m ρ c (Proc.devRef .tc main_arg7) := by
  show StableHlo.after hostOps2_1 (StableHlo.after hostOps2 (W7 m ρ c)) (Proc.devRef .tc main_arg7) = _
  dsimp only [hostOps2_1, hostOps2]
  after_results
theorem carry7_9_arg8 : W9 m ρ c (Proc.devRef .tc main_arg8) = W7 m ρ c (Proc.devRef .tc main_arg8) := by
  show StableHlo.after hostOps2_1 (StableHlo.after hostOps2 (W7 m ρ c)) (Proc.devRef .tc main_arg8) = _
  dsimp only [hostOps2_1, hostOps2]
  after_results

end Cert.KernelIdeal.Stages

end
-- ==== Proof.Stage11.lean ====
/-
  After the third matmul: the head's bias.

  The host broadcasts the head's bias over the 512 graphs and adds it to the third product. Given that the product's
  buffer holds the reference's stage and the bias is the argument, the result is the reference's result stage.
-/
import proofs.«106304_j77876347011160_1_alg».proof.Proof.Gen.KernelIdeal.Frame
import proofs.«106304_j77876347011160_1_alg».proof.Proof.RefRead

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

variable (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S128x32, .f32⟩ : BufTy).Contents (Elt Ideal)) (x8 : (⟨Cert.ReferenceIdeal.S32, .f32⟩ : BufTy).Contents (Elt Ideal))

/-- The result: pooled features times the head's weights, plus its bias. -/
theorem at11_out
    (hxw : W10 m ρ c (Proc.devRef .tc main_v78) = val_main_v104 (F := Ideal) x0 x1 x2 x3 x4 x5 x6 x7)
    (hb : W10 m ρ c (Proc.devRef .tc main_arg8) = x8) :
    W11 m ρ c (Proc.devRef .tc main_v81) = val_main_v107 (F := Ideal) x0 x1 x2 x3 x4 x5 x6 x7 x8 := by
  show StableHlo.after hostOps3 (W10 m ρ c) (Proc.devRef .tc main_v81) = _
  dsimp only [hostOps3]
  after_results
  simp only [hxw, hb]
  rfl

end Cert.KernelIdeal.Stages

end
-- ==== Proof.RegionIdx.lean ====
import proofs.«106304_j77876347011160_1_alg».proof.KernelIdeal

/-! # Where a matrix product reads its operands

Element (r, c) of a product of a 100000×128 array with a 128×128 array is the sum over the 128 contracted positions k
of the left array's (r, k) times the right array's (k, c). These are the two index functions of that sum. -/

namespace Cert.KernelIdeal.RegionValue

open Cert.KernelIdeal Idealize.ShloMosaic

/-- Row `i 0` of the left operand, at the contracted position `k`. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Column `i 1` of the right operand, at the contracted position `k`. -/
abbrev colAt (i : S100000x128.Idx) (k : Fin 128) : S128x128.Idx := fun a => match a with
  | ⟨0, _⟩ => ⟨k.val, k.isLt⟩
  | ⟨1, _⟩ => ⟨(i 1).val, (i 1).isLt⟩

end Cert.KernelIdeal.RegionValue
-- ==== Proof.Region0.lean ====
import proofs.«106304_j77876347011160_1_alg».proof.Proof.Gen.KernelIdeal.Frame
import proofs.«106304_j77876347011160_1_alg».proof.Proof.RegionIdx
import Idealize.ShloMosaic.Lib.Pipeline.Value
import Idealize.ShloMosaic.Lib.ValueIdx
import Idealize.ShloMosaic.PureOps.Ideal.Laws

/-! # The first matrix product: what its pipeline leaves in the output array

The first kernel multiplies a 100000×128 array by a 128×128 weight array, ten row blocks of 10000 rows at a time: at
grid point t it stages rows 10000·t … 10000·t + 9999 of the left array and the whole weight array, multiplies them
into a zero accumulator, and writes the 10000×128 result back to the same rows of the output array. Read at the ideal
values an element of a block's product is the sum over the 128 contracted positions of (row, k) times (k, column);
the row blocks tile the output array, so every element of the output array is that sum over the two input arrays. -/

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-- The staging buffers are loaded and stored whole: through the rectangle at offsets (0, 0). -/
theorem zero_offsets0 : (![0, 0] : Fin 2 → Nat) = fun _ => 0 := funext fun a => by fin_cases a <;> rfl

/-! ## One row block times the weights, at an index -/

/-- In a row block, position k of the row of the block's index j. -/
abbrev blockRowAt0 (j : S10000x128.Idx) (k : Fin 128) : S10000x128.Idx := fun a => match a with
  | ⟨0, _⟩ => ⟨(j 0).val, (j 0).isLt⟩
  | ⟨1, _⟩ => ⟨k.val, k.isLt⟩
/-- In the weight array, position k of the column of the block's index j. -/
abbrev weightColAt0 (j : S10000x128.Idx) (k : Fin 128) : S128x128.Idx := fun a => match a with
  | ⟨0, _⟩ => ⟨k.val, k.isLt⟩
  | ⟨1, _⟩ => ⟨(j 1).val, (j 1).isLt⟩

/-- The block product's left operand is read on the row of the output index, -/
theorem blockDot0_lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- at the contracted position; -/
theorem blockDot0_lhs_contr (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- its right operand at the contracted position, -/
theorem blockDot0_rhs_contr (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- on the column of the output index. -/
theorem blockDot0_rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's payload at the ideal values: rounding both operands to bf16 changes nothing, the accumulator is zero, so
    element (r, c) of the block's product is the sum over k of the block's (r, k) times the weights' (k, c). -/
theorem blockProduct0_apply (x0 : Vec Ideal S10000x128 .f32) (x1 : Vec Ideal S128x128 .f32) (j : S10000x128.Idx) :
    k0_pay1 (F := Ideal) x0 x1 j = ∑ k : Fin 128, x0 (blockRowAt0 j k) * x1 (weightColAt0 j k) := by
  unfold k0_pay1
  refine (Ideal.matmul_constant_zero_apply dot_S10000x128_S128x128_S10000x128_1_0_0_1_n_n none _ _ j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blockRowAt0 j k := funext fun a => Fin.ext (by
    match a with
    | ⟨0, _⟩ => exact blockDot0_lhs_row _ _
    | ⟨1, _⟩ => exact (blockDot0_lhs_contr _ _).trans hk)
  have er : dot_S10000x128_S128x128_S10000x128_1_0_0_1_n_n.rhsIdx j ((ValueIdx.contrEquiv1 dot_S10000x128_S128x128_S10000x128_1_0_0_1_n_n 128 rfl rfl).symm k) = weightColAt0 j k := funext fun a => Fin.ext (by
    match a with
    | ⟨0, _⟩ => exact (blockDot0_rhs_contr _ _).trans hk
    | ⟨1, _⟩ => exact blockDot0_rhs_col _ _)
  show x0 (dot_S10000x128_S128x128_S10000x128_1_0_0_1_n_n.lhsIdx j _) * x1 (dot_S10000x128_S128x128_S10000x128_1_0_0_1_n_n.rhsIdx j _) = _
  rw [el, er]

/-! ## What a grid point writes back -/

/-- The product of a 100000×128 array with a 128×128 array, index by index. -/
abbrev product0 (A : S100000x128.Idx → Elt Ideal .f32) (B : S128x128.Idx → Elt Ideal .f32) : S100000x128.Idx → Elt Ideal .f32 :=
  fun i => ∑ k : Fin 128, A (rowAt i k) * B (colAt i k)

/-- The printed index maps, decided over the ten grid points: the left operand's row block is the output's row block,
    every other block index is zero, and the output's row block index is below ten. -/
theorem rowBlock_indices0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some grid point's. -/
theorem rowBlock_onto0 : ∀ q : Fin 10, ∃ t : Fin cfg0.N, win0_2.index t = ![q.val, 0] :=
  (by decide +kernel : ∀ q : Fin 10, ∃ t : Fin grid0.N, win0_2.index t = ![q.val, 0])

/-- A block's product is the whole product at the block's place: when row r of the block is row i of the left array
    and the weights are the right array, element j of the block's product is element i of the arrays' product. -/
theorem blockProduct0_eq_product (A : S100000x128.Idx → Elt Ideal .f32) (B : S128x128.Idx → Elt Ideal .f32)
    (x0 : Vec Ideal S10000x128 .f32) (x1 : Vec Ideal S128x128 .f32) (j : S10000x128.Idx) (i : S100000x128.Idx)
    (h0 : ∀ k : Fin 128, x0 (blockRowAt0 j k) = A (rowAt i k))
    (h1 : ∀ k : Fin 128, x1 (weightColAt0 j k) = B (colAt i k)) :
    k0_pay1 (F := Ideal) x0 x1 j = product0 A B i :=
  (blockProduct0_apply x0 x1 j).trans (Finset.sum_congr rfl fun k _ => by rw [h0 k, h1 k])

variable (V : (c : Dev nD) → (b : Ref sig .tc) → Buf (Elt Ideal) ((c : Thread nD τ).loc b))

/-- What point t writes back is block t of the product of the two input arrays as the region finds them. -/
theorem flushed0_eq (c : Dev nD) (t : Fin cfg0.N) :
    (Gen.dat0 (F := Ideal) V c).flushed 2 t
      = ((cfg0.win 2).blk t).view.read (Elt Ideal) (product0 (V c main_arg0) (V c main_arg3)) := by
  show (cfg0.win 2).cut (grid0.coords t) ((Gen.dat0 (F := Ideal) V c).after 2 t) = _
  rw [Gen.after0_2]
  unfold Gen.out0_2
  rw [View.canon_unit_zero zero_offsets0]
  simp only [View.ld_unit_zero (S := S10000x128) zero_offsets0, View.ld_unit_zero (S := S128x128) zero_offsets0]
  obtain ⟨e0, e1, e2, e3, e4, e5⟩ := rowBlock_indices0 t
  funext j
  show k0_pay1 (F := Ideal) (Gen.iblk0 (F := Ideal) V c 0 t) (Gen.iblk0 (F := Ideal) V c 1 t) j
    = product0 (V c main_arg0) (V c main_arg3) (((cfg0.win 2).blk t).view.emb j)
  refine blockProduct0_eq_product _ _ _ _ j _ (fun k => ?_) (fun k => ?_)
  · show V c main_arg0 (((cfg0.win 0).blk t).view.emb (blockRowAt0 j k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (weightColAt0 j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-! ## The row blocks tile the output array -/

/-- An index of the output array is in point t's block iff each coordinate is in the block's range on its axis. -/
theorem mem_rowBlock0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row r of the output array is in the block of the point whose row block is r / 10000. -/
theorem rowBlocks_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := rowBlock_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_rowBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-! ## The output array after the region -/

/-- Region 0 leaves in its output array the whole product of its two input arrays as the region found them: element
    (r, c) is the sum over the 128 contracted positions k of the left array's (r, k) times the right array's (k, c). -/
theorem final0 (c : Dev nD) (i : S100000x128.Idx) :
    (Gen.dat0 (F := Ideal) V c).arrAt 2 cfg0.N i = product0 (V c main_arg0) (V c main_arg3) i :=
  congrFun ((Gen.dat0 (F := Ideal) V c).arrAt_eq_of_cover 2 (product0 (V c main_arg0) (V c main_arg3)) (fun t _ => flushed0_eq V c t) rowBlocks_cover0) i

end Cert.KernelIdeal.RegionValue

end
-- ==== Proof.Region1.lean ====
import proofs.«106304_j77876347011160_1_alg».proof.Proof.Gen.KernelIdeal.Frame
import proofs.«106304_j77876347011160_1_alg».proof.Proof.RegionIdx
import Idealize.ShloMosaic.Lib.Pipeline.Value
import Idealize.ShloMosaic.Lib.ValueIdx
import Idealize.ShloMosaic.PureOps.Ideal.Laws

/-! # The second matrix product: what its pipeline leaves in the output array

The second kernel multiplies the 100000×128 hidden array by the second 128×128 weight array, ten row blocks of 10000
rows at a time, exactly as the first one does: at grid point t it stages rows 10000·t … 10000·t + 9999 of the left
array and the whole weight array, multiplies them into a zero accumulator, and writes the 10000×128 result back to the
same rows of the output array. Read at the ideal values an element of a block's product is the sum over the 128
contracted positions of (row, k) times (k, column); the row blocks tile the output array, so every element of the
output array is that sum over the two input arrays. -/

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-- The staging buffers are loaded and stored whole: through the rectangle at offsets (0, 0). -/
theorem zero_offsets1 : (![0, 0] : Fin 2 → Nat) = fun _ => 0 := funext fun a => by fin_cases a <;> rfl

/-! ## One row block times the weights, at an index -/

/-- In a row block, position k of the row of the block's index j. -/
abbrev blockRowAt1 (j : S10000x128.Idx) (k : Fin 128) : S10000x128.Idx := fun a => match a with
  | ⟨0, _⟩ => ⟨(j 0).val, (j 0).isLt⟩
  | ⟨1, _⟩ => ⟨k.val, k.isLt⟩
/-- In the weight array, position k of the column of the block's index j. -/
abbrev weightColAt1 (j : S10000x128.Idx) (k : Fin 128) : S128x128.Idx := fun a => match a with
  | ⟨0, _⟩ => ⟨k.val, k.isLt⟩
  | ⟨1, _⟩ => ⟨(j 1).val, (j 1).isLt⟩

/-- The block product's left operand is read on the row of the output index, -/
theorem blockDot1_lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- at the contracted position; -/
theorem blockDot1_lhs_contr (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- its right operand at the contracted position, -/
theorem blockDot1_rhs_contr (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- on the column of the output index. -/
theorem blockDot1_rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's payload at the ideal values: rounding both operands to bf16 changes nothing, the accumulator is zero, so
    element (r, c) of the block's product is the sum over k of the block's (r, k) times the weights' (k, c). -/
theorem blockProduct1_apply (x0 : Vec Ideal S10000x128 .f32) (x1 : Vec Ideal S128x128 .f32) (j : S10000x128.Idx) :
    k1_pay1 (F := Ideal) x0 x1 j = ∑ k : Fin 128, x0 (blockRowAt1 j k) * x1 (weightColAt1 j k) := by
  unfold k1_pay1
  rw [shapeCast_self]
  refine (Ideal.matmul_constant_zero_apply dot_S10000x128_S128x128_S10000x128_1_0_0_1_n_n none _ _ j).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blockRowAt1 j k := funext fun a => Fin.ext (by
    match a with
    | ⟨0, _⟩ => exact blockDot1_lhs_row _ _
    | ⟨1, _⟩ => exact (blockDot1_lhs_contr _ _).trans hk)
  have er : dot_S10000x128_S128x128_S10000x128_1_0_0_1_n_n.rhsIdx j ((ValueIdx.contrEquiv1 dot_S10000x128_S128x128_S10000x128_1_0_0_1_n_n 128 rfl rfl).symm k) = weightColAt1 j k := funext fun a => Fin.ext (by
    match a with
    | ⟨0, _⟩ => exact (blockDot1_rhs_contr _ _).trans hk
    | ⟨1, _⟩ => exact blockDot1_rhs_col _ _)
  show x0 (dot_S10000x128_S128x128_S10000x128_1_0_0_1_n_n.lhsIdx j _) * x1 (dot_S10000x128_S128x128_S10000x128_1_0_0_1_n_n.rhsIdx j _) = _
  rw [el, er]

/-! ## What a grid point writes back -/

/-- The product of a 100000×128 array with a 128×128 array, index by index. -/
abbrev product1 (A : S100000x128.Idx → Elt Ideal .f32) (B : S128x128.Idx → Elt Ideal .f32) : S100000x128.Idx → Elt Ideal .f32 :=
  fun i => ∑ k : Fin 128, A (rowAt i k) * B (colAt i k)

/-- The printed index maps, decided over the ten grid points: the left operand's row block is the output's row block,
    every other block index is zero, and the output's row block index is below ten. -/
theorem rowBlock_indices1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some grid point's. -/
theorem rowBlock_onto1 : ∀ q : Fin 10, ∃ t : Fin cfg1.N, win1_2.index t = ![q.val, 0] :=
  (by decide +kernel : ∀ q : Fin 10, ∃ t : Fin grid1.N, win1_2.index t = ![q.val, 0])

/-- A block's product is the whole product at the block's place: when row r of the block is row i of the left array
    and the weights are the right array, element j of the block's product is element i of the arrays' product. -/
theorem blockProduct1_eq_product (A : S100000x128.Idx → Elt Ideal .f32) (B : S128x128.Idx → Elt Ideal .f32)
    (x0 : Vec Ideal S10000x128 .f32) (x1 : Vec Ideal S128x128 .f32) (j : S10000x128.Idx) (i : S100000x128.Idx)
    (h0 : ∀ k : Fin 128, x0 (blockRowAt1 j k) = A (rowAt i k))
    (h1 : ∀ k : Fin 128, x1 (weightColAt1 j k) = B (colAt i k)) :
    k1_pay1 (F := Ideal) x0 x1 j = product1 A B i :=
  (blockProduct1_apply x0 x1 j).trans (Finset.sum_congr rfl fun k _ => by rw [h0 k, h1 k])

variable (V : (c : Dev nD) → (b : Ref sig .tc) → Buf (Elt Ideal) ((c : Thread nD τ).loc b))

/-- What point t writes back is block t of the product of the two input arrays as the region finds them. -/
theorem flushed1_eq (c : Dev nD) (t : Fin cfg1.N) :
    (Gen.dat1 (F := Ideal) V c).flushed 2 t
      = ((cfg1.win 2).blk t).view.read (Elt Ideal) (product1 (V c main_v47) (V c main_arg5)) := by
  show (cfg1.win 2).cut (grid1.coords t) ((Gen.dat1 (F := Ideal) V c).after 2 t) = _
  rw [Gen.after1_2]
  unfold Gen.out1_2
  rw [View.canon_unit_zero zero_offsets1]
  simp only [View.ld_unit_zero (S := S10000x128) zero_offsets1, View.ld_unit_zero (S := S128x128) zero_offsets1]
  obtain ⟨e0, e1, e2, e3, e4, e5⟩ := rowBlock_indices1 t
  funext j
  show k1_pay1 (F := Ideal) (Gen.iblk1 (F := Ideal) V c 0 t) (Gen.iblk1 (F := Ideal) V c 1 t) j
    = product1 (V c main_v47) (V c main_arg5) (((cfg1.win 2).blk t).view.emb j)
  refine blockProduct1_eq_product _ _ _ _ j _ (fun k => ?_) (fun k => ?_)
  · show V c main_v47 (((cfg1.win 0).blk t).view.emb (blockRowAt1 j k)) = _
    refine congrArg (V c main_v47) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_arg5 (((cfg1.win 1).blk t).view.emb (weightColAt1 j k)) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-! ## The row blocks tile the output array -/

/-- An index of the output array is in point t's block iff each coordinate is in the block's range on its axis. -/
theorem mem_rowBlock1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v48).slice (win1_2.rect t)).set ↔ _
  rw [View.set_slice_whole, Rect.mem_set_unit]
  exact Iff.rfl

/-- Row r of the output array is in the block of the point whose row block is r / 10000. -/
theorem rowBlocks_cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := rowBlock_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_rowBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-! ## The output array after the region -/

/-- Region 1 leaves in its output array the whole product of its two input arrays as the region found them: element
    (r, c) is the sum over the 128 contracted positions k of the left array's (r, k) times the right array's (k, c). -/
theorem final1 (c : Dev nD) (i : S100000x128.Idx) :
    (Gen.dat1 (F := Ideal) V c).arrAt 2 cfg1.N i = product1 (V c main_v47) (V c main_arg5) i :=
  congrFun ((Gen.dat1 (F := Ideal) V c).arrAt_eq_of_cover 2 (product1 (V c main_v47) (V c main_arg5)) (fun t _ => flushed1_eq V c t) rowBlocks_cover1) i

end Cert.KernelIdeal.RegionValue

end
-- ==== Proof.Region2.lean ====
/-
  Region 2: the pooled 512 x 128 array times the 128 x 32 weight array.

  The region's grid has one point, and each window's block is its whole array, so the kernel body runs once on the
  two whole input arrays and stores one 512 x 32 block: their matrix product, accumulated into a zero block. At the
  ideal values rounding the operands to bf16 changes nothing and adding to zero changes nothing, so the stored block
  is the plain product: entry (r, c) is the sum over k of left (r, k) * right (k, c).
-/
import proofs.«106304_j77876347011160_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue
open Cert.KernelIdeal Cert.KernelIdeal.Gen Idealize.ShloMosaic Idealize.ShloMosaic.TcCoe Idealize.SL.Sem

/-! ## The product at an index -/

/-- Row `i 0` of the left operand, at the contracted position `k`. -/
abbrev rowAt2 (i : S512x32.Idx) (k : Fin 128) : S512x128.Idx := fun a => match a with
  | ⟨0, _⟩ => ⟨(i 0).val, (i 0).isLt⟩
  | ⟨1, _⟩ => ⟨k.val, k.isLt⟩
/-- Column `i 1` of the right operand, at the contracted position `k`. -/
abbrev colAt2 (i : S512x32.Idx) (k : Fin 128) : S128x32.Idx := fun a => match a with
  | ⟨0, _⟩ => ⟨k.val, k.isLt⟩
  | ⟨1, _⟩ => ⟨(i 1).val, (i 1).isLt⟩

/-- The product's left operand is read on the output's row: axis 0 of the left array is the free axis. -/
theorem left_row (i : S512x32.Idx) (q : dot_S512x128_S128x32_S512x32_1_0_0_1_n_n.contr.Idx) :
    (dot_S512x128_S128x32_S512x32_1_0_0_1_n_n.lhsIdx i q 0).val = (i 0).val := by
  unfold DotDims.lhsIdx
  rw [dif_neg (show ¬(0 : Fin S512x128.rank) ∈ dot_S512x128_S128x32_S512x32_1_0_0_1_n_n.lhsBatch by decide), dif_pos (show (0 : Fin S512x128.rank) ∈ dot_S512x128_S128x32_S512x32_1_0_0_1_n_n.lhsNonContracting by decide)]
  rfl
/-- and at the contracted position on its axis 1; -/
theorem left_contracted (i : S512x32.Idx) (q : dot_S512x128_S128x32_S512x32_1_0_0_1_n_n.contr.Idx) :
    (dot_S512x128_S128x32_S512x32_1_0_0_1_n_n.lhsIdx i q 1).val = (q ⟨0, by decide⟩).val :=
  dot_S512x128_S128x32_S512x32_1_0_0_1_n_n.lhsIdx_val_of_single rfl i q
/-- the right operand at the contracted position on its axis 0 -/
theorem right_contracted (i : S512x32.Idx) (q : dot_S512x128_S128x32_S512x32_1_0_0_1_n_n.contr.Idx) :
    (dot_S512x128_S128x32_S512x32_1_0_0_1_n_n.rhsIdx i q 0).val = (q ⟨0, by decide⟩).val :=
  dot_S512x128_S128x32_S512x32_1_0_0_1_n_n.rhsIdx_val_of_single rfl i q
/-- and on the output's column: axis 1 of the right array is the free axis. -/
theorem right_col (i : S512x32.Idx) (q : dot_S512x128_S128x32_S512x32_1_0_0_1_n_n.contr.Idx) :
    (dot_S512x128_S128x32_S512x32_1_0_0_1_n_n.rhsIdx i q 1).val = (i 1).val := by
  unfold DotDims.rhsIdx
  rw [dif_neg (show ¬(1 : Fin S128x32.rank) ∈ dot_S512x128_S128x32_S512x32_1_0_0_1_n_n.rhsBatch by decide), dif_pos (show (1 : Fin S128x32.rank) ∈ dot_S512x128_S128x32_S512x32_1_0_0_1_n_n.rhsNonContracting by decide)]
  rfl

/-- The product of two blocks: entry `i` is the sum over the shared axis of the left block's row times the
    right block's column. -/
abbrev product2 (x0 : S512x128.Idx → EReal) (x1 : S128x32.Idx → EReal) : S512x32.Idx → EReal :=
  fun i => ∑ k : Fin 128, x0 (rowAt2 i k) * x1 (colAt2 i k)

/-- The body's payload on two blocks is their product: at the ideal values rounding to bf16 is the identity, and the
    accumulator the matrix unit adds into is zero. -/
theorem product_pay (x0 : Vec Ideal S512x128 .f32) (x1 : Vec Ideal S128x32 .f32) :
    k2_pay1 (F := Ideal) x0 x1 = product2 x0 x1 := by
  funext i
  unfold Gen.k2_pay1
  show FloatOps.matmul (F := Ideal) (φ₁ := .bf16) (φ₂ := .bf16) dot_S512x128_S128x32_S512x32_1_0_0_1_n_n none
      (shapeCast S512x128 x0 shapeCasts_S512x128_S512x128) x1 (constant (F := Ideal) S512x32 .f32 0x00000000#32) i = _
  refine (Ideal.matmul_constant_zero_apply (φ₁ := .bf16) (φ₂ := .bf16) dot_S512x128_S128x32_S512x32_1_0_0_1_n_n none
    (shapeCast S512x128 x0 shapeCasts_S512x128_S512x128) x1 i).trans ?_
  rw [shapeCast_self, ← Equiv.sum_comp (ValueIdx.contrEquiv1 dot_S512x128_S128x32_S512x32_1_0_0_1_n_n 128 rfl rfl).symm]
  refine Finset.sum_congr rfl fun k _ => ?_
  have hk := ValueIdx.contrEquiv1_symm_val dot_S512x128_S128x32_S512x32_1_0_0_1_n_n 128 rfl rfl k
  have el : dot_S512x128_S128x32_S512x32_1_0_0_1_n_n.lhsIdx i ((ValueIdx.contrEquiv1 dot_S512x128_S128x32_S512x32_1_0_0_1_n_n 128 rfl rfl).symm k) = rowAt2 i k := funext fun a => Fin.ext (by
    match a with
    | ⟨0, _⟩ => exact left_row _ _
    | ⟨1, _⟩ => exact (left_contracted _ _).trans hk)
  have er : dot_S512x128_S128x32_S512x32_1_0_0_1_n_n.rhsIdx i ((ValueIdx.contrEquiv1 dot_S512x128_S128x32_S512x32_1_0_0_1_n_n 128 rfl rfl).symm k) = colAt2 i k := funext fun a => Fin.ext (by
    match a with
    | ⟨0, _⟩ => exact (right_contracted _ _).trans hk
    | ⟨1, _⟩ => exact right_col _ _)
  rw [el, er]

/-! ## From the one block to the array -/

theorem zero_offsets : (![0, 0] : Fin 2 → Nat) = fun _ => 0 := funext fun a => by fin_cases a <;> rfl

/-- The printed index maps, decided over the grid: at the one point every window's block index is (0, 0). -/
theorem block_index_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The left window's block is the whole left array. -/
theorem left_block (V : (c : Dev nD) → (b : Ref sig .tc) → Buf (Elt Ideal) ((c : Thread nD τ).loc b)) (c : Dev nD)
    (t : Fin cfg2.N) : (Gen.iblk2 (F := Ideal) V c 0 t : S512x128.Idx → EReal) = V c main_v77 := by
  obtain ⟨e0, e1, -, -, -, -⟩ := block_index_zero t
  funext y
  show V c main_v77 (((cfg2.win 0).blk t).view.emb y) = V c main_v77 y
  refine congrArg (V c main_v77) ?_
  funext a; apply Fin.ext
  match a with
  | ⟨0, _⟩ => show win2_0.index t (0 : Fin 2) * 512 + 1 * (y 0).val = (y 0).val; omega
  | ⟨1, _⟩ => show win2_0.index t (1 : Fin 2) * 128 + 1 * (y 1).val = (y 1).val; omega

/-- The right window's block is the whole weight array. -/
theorem right_block (V : (c : Dev nD) → (b : Ref sig .tc) → Buf (Elt Ideal) ((c : Thread nD τ).loc b)) (c : Dev nD)
    (t : Fin cfg2.N) : (Gen.iblk2 (F := Ideal) V c 1 t : S128x32.Idx → EReal) = V c main_arg7 := by
  obtain ⟨-, -, e0, e1, -, -⟩ := block_index_zero t
  funext y
  show V c main_arg7 (((cfg2.win 1).blk t).view.emb y) = V c main_arg7 y
  refine congrArg (V c main_arg7) ?_
  funext a; apply Fin.ext
  match a with
  | ⟨0, _⟩ => show win2_1.index t (0 : Fin 2) * 128 + 1 * (y 0).val = (y 0).val; omega
  | ⟨1, _⟩ => show win2_1.index t (1 : Fin 2) * 32 + 1 * (y 1).val = (y 1).val; omega

/-- An element of the output window's block sits in the output array at its own index. -/
theorem out_block_index (t : Fin cfg2.N) (y : S512x32.Idx) : ((cfg2.win 2).blk t).view.emb y = y := by
  obtain ⟨-, -, -, -, e0, e1⟩ := block_index_zero t
  funext a; apply Fin.ext
  match a with
  | ⟨0, _⟩ => show win2_2.index t (0 : Fin 2) * 512 + 1 * (y 0).val = (y 0).val; omega
  | ⟨1, _⟩ => show win2_2.index t (1 : Fin 2) * 32 + 1 * (y 1).val = (y 1).val; omega

/-- WHAT THE POINT WRITES BACK is its block of the product of the two input arrays as the region finds them. -/
theorem flushed_product (V : (c : Dev nD) → (b : Ref sig .tc) → Buf (Elt Ideal) ((c : Thread nD τ).loc b)) (c : Dev nD)
    (t : Fin cfg2.N) :
    (Gen.dat2 (F := Ideal) V c).flushed 2 t
      = ((cfg2.win 2).blk t).view.read (Elt Ideal) (product2 (V c main_v77) (V c main_arg7)) := by
  show (cfg2.win 2).cut (grid2.coords t) ((Gen.dat2 V c).after 2 t) = _
  rw [Gen.after2_2]
  unfold Gen.out2_2
  rw [View.canon_unit_zero zero_offsets]
  simp only [View.ld_unit_zero (S := S512x128) zero_offsets, View.ld_unit_zero (S := S128x32) zero_offsets]
  rw [product_pay]
  funext j
  show product2 (Gen.iblk2 V c 0 t) (Gen.iblk2 V c 1 t) j
    = product2 (V c main_v77) (V c main_arg7) (((cfg2.win 2).blk t).view.emb j)
  rw [out_block_index t j]
  exact congrFun (congrArg₂ product2 (left_block V c t) (right_block V c t)) j

/-- An index of the output array is in the point's block iff each coordinate is in the block's range on its axis. -/
theorem mem_out_block (t : Fin cfg2.N) (i : S512x32.Idx) :
    i ∈ ((cfg2.win 2).blk t).view.set ↔ ∀ a : Fin 2, win2_2.index t a * S512x32.size a ≤ (i a).val ∧ (i a).val < win2_2.index t a * S512x32.size a + S512x32.size a := by
  show i ∈ ((View.whole main_v78).slice (win2_2.rect t)).set ↔ _
  rw [View.set_slice_whole, Rect.mem_set_unit]
  exact Iff.rfl

/-- The one point's block is the whole output array. -/
theorem out_covered (i : S512x32.Idx) :
    ∃ t : Fin cfg2.N, (cfg2.win 2).flush t = true ∧ i ∈ ((cfg2.win 2).blk t).view.set := by
  obtain ⟨-, -, -, -, e0, e1⟩ := block_index_zero t2_0
  have h0 : (i 0).val < 512 := (i 0).isLt
  have h1 : (i 1).val < 32 := (i 1).isLt
  refine ⟨t2_0, flush2_2 t2_0, ?_⟩
  rw [mem_out_block]
  intro a
  match a with
  | ⟨0, _⟩ => show win2_2.index t2_0 (0 : Fin 2) * 512 ≤ (i 0).val ∧ (i 0).val < win2_2.index t2_0 (0 : Fin 2) * 512 + 512; omega
  | ⟨1, _⟩ => show win2_2.index t2_0 (1 : Fin 2) * 32 ≤ (i 1).val ∧ (i 1).val < win2_2.index t2_0 (1 : Fin 2) * 32 + 32; omega

/-- Region 2 leaves in its output array the whole product of its two input arrays as the region found them. -/
theorem final2_array (V : (c : Dev nD) → (b : Ref sig .tc) → Buf (Elt Ideal) ((c : Thread nD τ).loc b)) (c : Dev nD) :
    (Gen.dat2 (F := Ideal) V c).arrAt 2 cfg2.N = product2 (V c main_v77) (V c main_arg7) :=
  (Gen.dat2 (F := Ideal) V c).arrAt_eq_of_cover 2 (product2 (V c main_v77) (V c main_arg7))
    (fun t _ => flushed_product V c t) out_covered

/-- The same index by index: entry `i` of the output array is the sum over the shared axis of the left array's
    row `i 0` times the weight array's column `i 1`. -/
theorem final2 (V : (c : Dev nD) → (b : Ref sig .tc) → Buf (Elt Ideal) ((c : Thread nD τ).loc b)) (c : Dev nD) (i : S512x32.Idx) :
    (Gen.dat2 (F := Ideal) V c).arrAt 2 cfg2.N i = product2 (V c main_v77) (V c main_arg7) i :=
  congrFun (final2_array V c) i

end Cert.KernelIdeal.RegionValue

end
-- ==== Proof.Chain.lean ====
/-
  The idealized kernel's result as a function of its arguments: the reference's result stage.

  The boundaries of @main's segments are walked in order. At each boundary the buffers still to be read hold stages of
  the reference, as functions of the launch memory's argument arrays:
    at the first matmul's entry   the two index lists with self loops, the edge weights, the arguments;
    at its exit                   also the first product, features times the first layer's weights;
    at the second matmul's entry  the first layer's clamped output;
    at its exit                   the second product;
    at the third matmul's entry   the pooled, clamped graph features;
    at its exit                   the third product;
    at the return                 the third product plus the head's bias: the result.
  A matmul region's array after the region is the whole matrix product of the region's two input arrays, and at the
  exact extended reals the host's dot_general of the same arrays is that sum too, element by element, so the two agree
  whatever the inputs are: no finiteness is used. A stretch of host operations is the reference's own operations on the
  same buffers. A buffer that a segment does not write keeps its contents across it.
-/
import proofs.«106304_j77876347011160_1_alg».proof.Proof.Stage3
import proofs.«106304_j77876347011160_1_alg».proof.Proof.Stage6
import proofs.«106304_j77876347011160_1_alg».proof.Proof.Carry6
import proofs.«106304_j77876347011160_1_alg».proof.Proof.Stage9
import proofs.«106304_j77876347011160_1_alg».proof.Proof.Stage11
import proofs.«106304_j77876347011160_1_alg».proof.Proof.Region0
import proofs.«106304_j77876347011160_1_alg».proof.Proof.Region1
import proofs.«106304_j77876347011160_1_alg».proof.Proof.Region2

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

/-! ## A matmul region's array is the reference's dot_general of the region's input arrays -/

section Regions
variable (V : (c : Dev nD) → (b : Ref sig .tc) → Buf (Elt Ideal) ((c : Thread nD τ).loc b)) (c : Dev nD)

theorem region0_product : (dat0 (F := Ideal) V c).arrAt 2 cfg0.N = val_main_v4 (F := Ideal) (V c main_arg0) (V c main_arg3) := by
  funext i
  rw [val_main_v4_apply]
  exact RegionValue.final0 V c i

theorem region1_product : (dat1 (F := Ideal) V c).arrAt 2 cfg1.N = val_main_v4 (F := Ideal) (V c main_v47) (V c main_arg5) := by
  funext i
  rw [val_main_v4_apply]
  exact RegionValue.final1 V c i

/-- The host's 512×128 by 128×32 product at an element, for any two operands: the sum over the contracted axis. -/
theorem head_product_apply (x : (⟨Cert.ReferenceIdeal.S512x128, .f32⟩ : BufTy).Contents (Elt Ideal)) (w : (⟨Cert.ReferenceIdeal.S128x32, .f32⟩ : BufTy).Contents (Elt Ideal)) (i : Cert.ReferenceIdeal.S512x32.Idx) :
    Host.dotGeneral (F := Ideal) (φ₁ := .f32) (φ₂ := .f32) Cert.ReferenceIdeal.dot_S512x128_S128x32_S512x32_1_0_0_1_n_n none x w i
      = ∑ k : Fin 128, x (lidx_main_v104 i k) * w (ridx_main_v104 i k) := by
  simp only [Host.dotGeneral]
  rw [Ideal.dotGeneral_apply, ← Equiv.sum_comp (ValueIdx.contrEquiv1 Cert.ReferenceIdeal.dot_S512x128_S128x32_S512x32_1_0_0_1_n_n 128 rfl rfl).symm]
  refine Finset.sum_congr rfl fun k _ => ?_
  have hk := ValueIdx.contrEquiv1_symm_val Cert.ReferenceIdeal.dot_S512x128_S128x32_S512x32_1_0_0_1_n_n 128 rfl rfl k
  have el : Cert.ReferenceIdeal.dot_S512x128_S128x32_S512x32_1_0_0_1_n_n.lhsIdx i ((ValueIdx.contrEquiv1 Cert.ReferenceIdeal.dot_S512x128_S128x32_S512x32_1_0_0_1_n_n 128 rfl rfl).symm k) = lidx_main_v104 i k := funext fun a => Fin.ext (by
    match a with
    | ⟨0, _⟩ => exact lhs_main_v104_0 _ _
    | ⟨1, _⟩ => exact (lhs_main_v104_1 _ _).trans hk)
  have er : Cert.ReferenceIdeal.dot_S512x128_S128x32_S512x32_1_0_0_1_n_n.rhsIdx i ((ValueIdx.contrEquiv1 Cert.ReferenceIdeal.dot_S512x128_S128x32_S512x32_1_0_0_1_n_n 128 rfl rfl).symm k) = ridx_main_v104 i k := funext fun a => Fin.ext (by
    match a with
    | ⟨0, _⟩ => exact (rhs_main_v104_0 _ _).trans hk
    | ⟨1, _⟩ => exact rhs_main_v104_1 _ _)
  rw [el, er]

theorem region2_product : (dat2 (F := Ideal) V c).arrAt 2 cfg2.N
    = Host.dotGeneral (F := Ideal) (φ₁ := .f32) (φ₂ := .f32) Cert.ReferenceIdeal.dot_S512x128_S128x32_S512x32_1_0_0_1_n_n none (V c main_v77) (V c main_arg7) := by
  funext i
  rw [head_product_apply]
  exact RegionValue.final2 V c i

end Regions

/-! ## The boundaries, in order -/

variable (m : (ℓ : Loc nD τ sig) → Buf (Elt Ideal) ℓ) (ρ : Dev nD → PrngReg) (c : Dev nD)

/-- After the first matmul: the first product. -/
theorem at4_xw : W4 m ρ c (Proc.devRef .tc main_v30) = val_main_v4 (F := Ideal) (m ((c : Thread nD τ).loc main_arg0)) (m ((c : Thread nD τ).loc main_arg3)) :=
  (W4_arr m ρ c 2).trans ((region0_product (V3 m ρ) c).trans
    (congrArg₂ (val_main_v4 (F := Ideal)) (at3_arg0 m ρ c) (at3_arg3 m ρ c)))
theorem at4_src : W4 m ρ c (Proc.devRef .tc main_v5) = val_main_v6 (F := Ideal) (m ((c : Thread nD τ).loc main_arg1)) :=
  (W4_of_ne m ρ c main_v5 (by decide)).trans (at3_src m ρ c)
theorem at4_dst : W4 m ρ c (Proc.devRef .tc main_v6) = val_main_v7 (F := Ideal) (m ((c : Thread nD τ).loc main_arg1)) :=
  (W4_of_ne m ρ c main_v6 (by decide)).trans (at3_dst m ρ c)
theorem at4_norm : W4 m ρ c (Proc.devRef .tc main_v29) = val_main_v30 (F := Ideal) (m ((c : Thread nD τ).loc main_arg1)) :=
  (W4_of_ne m ρ c main_v29 (by decide)).trans (at3_norm m ρ c)
theorem at4_arg2 : W4 m ρ c (Proc.devRef .tc main_arg2) = (m ((c : Thread nD τ).loc main_arg2)) :=
  (W4_of_ne m ρ c main_arg2 (by decide)).trans (at3_arg2 m ρ c)
theorem at4_arg4 : W4 m ρ c (Proc.devRef .tc main_arg4) = (m ((c : Thread nD τ).loc main_arg4)) :=
  (W4_of_ne m ρ c main_arg4 (by decide)).trans (at3_arg4 m ρ c)
theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)

/-- At the second matmul's entry: the first layer's output. -/
theorem at6_h : W6 m ρ c (Proc.devRef .tc main_v47) = val_main_v47 (F := Ideal) (m ((c : Thread nD τ).loc main_arg0)) (m ((c : Thread nD τ).loc main_arg1)) (m ((c : Thread nD τ).loc main_arg3)) (m ((c : Thread nD τ).loc main_arg4)) :=
  at6_hidden m ρ c _ _ _ _ (at4_xw m ρ c) (at4_src m ρ c) (at4_dst m ρ c) (at4_norm m ρ c) (at4_arg4 m ρ c)
theorem at6_src : W6 m ρ c (Proc.devRef .tc main_v5) = val_main_v6 (F := Ideal) (m ((c : Thread nD τ).loc main_arg1)) := (carry4_6_v5 m ρ c).trans (at4_src m ρ c)
theorem at6_dst : W6 m ρ c (Proc.devRef .tc main_v6) = val_main_v7 (F := Ideal) (m ((c : Thread nD τ).loc main_arg1)) := (carry4_6_v6 m ρ c).trans (at4_dst m ρ c)
theorem at6_norm : W6 m ρ c (Proc.devRef .tc main_v29) = val_main_v30 (F := Ideal) (m ((c : Thread nD τ).loc main_arg1)) := (carry4_6_v29 m ρ c).trans (at4_norm m ρ c)
theorem at6_arg2 : W6 m ρ c (Proc.devRef .tc main_arg2) = (m ((c : Thread nD τ).loc main_arg2)) := (carry4_6_arg2 m ρ c).trans (at4_arg2 m ρ c)
theorem at6_arg5 : W6 m ρ c (Proc.devRef .tc main_arg5) = (m ((c : Thread nD τ).loc main_arg5)) := (carry4_6_arg5 m ρ c).trans (at4_arg5 m ρ c)
theorem at6_arg6 : W6 m ρ c (Proc.devRef .tc main_arg6) = (m ((c : Thread nD τ).loc main_arg6)) := (carry4_6_arg6 m ρ c).trans (at4_arg6 m ρ c)
theorem at6_arg7 : W6 m ρ c (Proc.devRef .tc main_arg7) = (m ((c : Thread nD τ).loc main_arg7)) := (carry4_6_arg7 m ρ c).trans (at4_arg7 m ρ c)
theorem at6_arg8 : W6 m ρ c (Proc.devRef .tc main_arg8) = (m ((c : Thread nD τ).loc main_arg8)) := (carry4_6_arg8 m ρ c).trans (at4_arg8 m ρ c)

/-- After the second matmul: the second product. -/
theorem at7_xw : W7 m ρ c (Proc.devRef .tc main_v48) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W7_arr m ρ c 2).trans ((region1_product (V6 m ρ) c).trans
    (congrArg₂ (val_main_v4 (F := Ideal)) (at6_h m ρ c) (at6_arg5 m ρ c)))
theorem at7_src : W7 m ρ c (Proc.devRef .tc main_v5) = val_main_v6 (F := Ideal) (m ((c : Thread nD τ).loc main_arg1)) := (W7_of_ne m ρ c main_v5 (by decide)).trans (at6_src m ρ c)
theorem at7_dst : W7 m ρ c (Proc.devRef .tc main_v6) = val_main_v7 (F := Ideal) (m ((c : Thread nD τ).loc main_arg1)) := (W7_of_ne m ρ c main_v6 (by decide)).trans (at6_dst m ρ c)
theorem at7_norm : W7 m ρ c (Proc.devRef .tc main_v29) = val_main_v30 (F := Ideal) (m ((c : Thread nD τ).loc main_arg1)) := (W7_of_ne m ρ c main_v29 (by decide)).trans (at6_norm m ρ c)
theorem at7_arg2 : W7 m ρ c (Proc.devRef .tc main_arg2) = (m ((c : Thread nD τ).loc main_arg2)) := (W7_of_ne m ρ c main_arg2 (by decide)).trans (at6_arg2 m ρ c)
theorem at7_arg6 : W7 m ρ c (Proc.devRef .tc main_arg6) = (m ((c : Thread nD τ).loc main_arg6)) := (W7_of_ne m ρ c main_arg6 (by decide)).trans (at6_arg6 m ρ c)
theorem at7_arg7 : W7 m ρ c (Proc.devRef .tc main_arg7) = (m ((c : Thread nD τ).loc main_arg7)) := (W7_of_ne m ρ c main_arg7 (by decide)).trans (at6_arg7 m ρ c)
theorem at7_arg8 : W7 m ρ c (Proc.devRef .tc main_arg8) = (m ((c : Thread nD τ).loc main_arg8)) := (W7_of_ne m ρ c main_arg8 (by decide)).trans (at6_arg8 m ρ c)

/-- At the third matmul's entry: the pooled graph features. -/
theorem at9_g : W9 m ρ c (Proc.devRef .tc main_v77) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  at9_pooled m ρ c _ _ _ _ _ _ _ (at7_xw m ρ c) (at7_src m ρ c) (at7_dst m ρ c) (at7_norm m ρ c) (at7_arg6 m ρ c) (at7_arg2 m ρ c)
theorem at9_arg7 : W9 m ρ c (Proc.devRef .tc main_arg7) = (m ((c : Thread nD τ).loc main_arg7)) := (carry7_9_arg7 m ρ c).trans (at7_arg7 m ρ c)
theorem at9_arg8 : W9 m ρ c (Proc.devRef .tc main_arg8) = (m ((c : Thread nD τ).loc main_arg8)) := (carry7_9_arg8 m ρ c).trans (at7_arg8 m ρ c)

/-- After the third matmul: the third product. -/
theorem at10_xw : W10 m ρ c (Proc.devRef .tc main_v78) = val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans ((region2_product (V9 m ρ) c).trans
    (congrArg₂ (Host.dotGeneral (F := Ideal) (φ₁ := .f32) (φ₂ := .f32) Cert.ReferenceIdeal.dot_S512x128_S128x32_S512x32_1_0_0_1_n_n none) (at9_g m ρ c) (at9_arg7 m ρ c)))
theorem at10_arg8 : W10 m ρ c (Proc.devRef .tc main_arg8) = (m ((c : Thread nD τ).loc main_arg8)) := (W10_of_ne m ρ c main_arg8 (by decide)).trans (at9_arg8 m ρ c)

/-- At the return: the result buffer holds the reference's result stage of the launch memory's arguments. -/
theorem result_is_reference : W11 m ρ c (Proc.devRef .tc main_v81)
    = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  at11_out m ρ c _ _ _ _ _ _ _ _ _ (at10_xw m ρ c) (at10_arg8 m ρ c)

end Cert.KernelIdeal.Stages

end
-- ==== Proof.lean ====
/-
  Two graph-convolution layers, a mean pool over graphs and a linear head, computed two ways, are one function on the
  extended reals.

  Both programs take node features x, an edge list, a graph index per node and the weights and biases of two
  convolution layers and a head. Both append a self loop to every node, count each node's in-degree by a scatter-add of
  ones, weight every edge by (in-degree of its source)^(-1/2) · (in-degree of its destination)^(-1/2), with zero in
  place of the inverse root where the degree is not positive, and then, per layer, multiply the node features by the
  layer's weight matrix, gather the products' rows at the edge sources, scale them by the edge weights, scatter-add them
  into the edge destinations and add the bias; the first layer's output is clamped at zero. The second layer's output is
  summed per graph, divided by the graph's node count clamped below at one, clamped at zero, multiplied by the head's
  weight matrix, and the head's bias is added.

  The programs differ in two ways only. The kernel program computes its three matrix products on the TensorCore, in
  row blocks (ten blocks of 10000 rows for the two layer products, one block for the head's), rounding both operands to
  bf16 on the way in and accumulating from zero, where the reference calls the host's dot_general; and it computes the
  edge weights once, where the reference recomputes them for the second layer. On the extended reals a change of float
  format is the identity and zero plus a sum is the sum, so a block product's element is the same sum over the 128
  contracted positions as the dot_general's, the row blocks tile the product, and the recomputed weights are the same
  term: the two results agree element by element, for all inputs, and the precondition is never opened. The idealized
  kernel is the kernel's own text read at the extended reals (the idealization rewrote nothing), so nothing is owed for
  it beyond the frames.
-/
import proofs.«106304_j77876347011160_1_alg».proof.Defs
import proofs.«106304_j77876347011160_1_alg».proof.Proof.Gen.Kernel
import proofs.«106304_j77876347011160_1_alg».proof.Proof.Gen.Kernel.Skeleton
import proofs.«106304_j77876347011160_1_alg».proof.Proof.Gen.Kernel.Launch
import proofs.«106304_j77876347011160_1_alg».proof.Proof.Gen.Kernel.Points
import proofs.«106304_j77876347011160_1_alg».proof.Proof.Gen.Kernel.Frame
import proofs.«106304_j77876347011160_1_alg».proof.Proof.Gen.KernelIdeal
import proofs.«106304_j77876347011160_1_alg».proof.Proof.Gen.KernelIdeal.Skeleton
import proofs.«106304_j77876347011160_1_alg».proof.Proof.Gen.KernelIdeal.Launch
import proofs.«106304_j77876347011160_1_alg».proof.Proof.Gen.KernelIdeal.Points
import proofs.«106304_j77876347011160_1_alg».proof.Proof.Gen.KernelIdeal.Frame
import proofs.«106304_j77876347011160_1_alg».proof.Proof.Gen.ReferenceIdeal
import proofs.«106304_j77876347011160_1_alg».proof.Proof.Gen.Pre_finite_inputs
import proofs.«106304_j77876347011160_1_alg».proof.Proof.RefRun
import proofs.«106304_j77876347011160_1_alg».proof.Proof.RefRead
import proofs.«106304_j77876347011160_1_alg».proof.Proof.KernelRun
import proofs.«106304_j77876347011160_1_alg».proof.Proof.Chain
import Idealize.ShloMosaic.Adequacy
import Idealize.ShloMosaic.Init

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does the kernel program read at the extended reals. -/
theorem frame_kernel_ideal : Cert.frame_KernelIdeal := fun m ρ _ => Cert.KernelIdeal.Gen.frame m ρ

/-- So does the reference: its run, with the statement about its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- From memories that agree on the nine arguments both programs end with the same 512×32 result: the reference's
    result as a function of the arguments. The kernel program's run ends at the last segment boundary's contents, which
    are that function of its launch memory; the reference's run ends at it by its own run. -/
theorem algebraic : Cert.algebraic_KernelIdeal_ReferenceIdeal := by
  intro m ρ m' ρ' _ hagree
  refine ⟨fun c => Cert.ReferenceIdeal.Read.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Stages.result_is_reference m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v107_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
